-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S1x4096x256 : Shape := ⟨3, ![1, 4096, 256]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S1x4096x256 : S_.BroadcastsInDim S1x4096x256 (![] : Fin 0 → Fin S1x4096x256.rank)
  reducesTo_S1x4096x256_S_d0_1_2 : S1x4096x256.ReducesTo [0, 1, 2] S_

variable [Facts]

def fn_part1 {F : FTy → Type} [FloatOps F] (main_arg4 : FVec F S1x4096x256 .f32) (main_v13 : IVec S_ 1) (main_v16 : IVec S1x4096x256 1) : IVec S_ 1 :=
  let main_c_5 : IVec S_ 1 := constantI S_ 1 1#1
  let main_v17 : IVec S_ 1 := (fun x v => Host.reduce IntOp.andi x v reducesTo_S1x4096x256_S_d0_1_2 h_S_) main_v16 main_c_5
  let main_v18 : IVec S_ 1 := andi main_v13 main_v17
  let main_v19 : FVec F S1x4096x256 .f32 := Host.absf main_arg4
  let main_cst_6 : FVec F S_ .f32 := constant S_ .f32 0x7F800000#32
  let main_v20 : FVec F S1x4096x256 .f32 := broadcastInDim S1x4096x256 ![] bcast_S_S1x4096x256 main_cst_6
  let main_v21 : IVec S1x4096x256 1 := cmpf .olt main_v19 main_v20
  let main_c_7 : IVec S_ 1 := constantI S_ 1 1#1
  let main_v22 : IVec S_ 1 := (fun x v => Host.reduce IntOp.andi x v reducesTo_S1x4096x256_S_d0_1_2 h_S_) main_v21 main_c_7
  let main_v23 : IVec S_ 1 := andi main_v18 main_v22
  main_v23

def fn {F : FTy → Type} [FloatOps F] (main_arg0 : FVec F S8x256x64x64 .f32) (main_arg1 : FVec F S8x256x64x64 .f32) (main_arg2 : FVec F S8x256x64x64 .f32) (main_arg3 : FVec F S1x4096x256 .f32) (main_arg4 : FVec F S1x4096x256 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S8x256x64x64 .f32 := Host.absf main_arg2
  let main_cst_2 : FVec F S_ .f32 := constant S_ .f32 0x7F800000#32
  let main_v10 : FVec F S8x256x64x64 .f32 := broadcastInDim S8x256x64x64 ![] bcast_S_S8x256x64x64 main_cst_2
  let main_v11 : IVec S8x256x64x64 1 := cmpf .olt main_v9 main_v10
  let main_c_3 : IVec S_ 1 := constantI S_ 1 1#1
  let main_v12 : IVec S_ 1 := (fun x v => Host.reduce IntOp.andi x v reducesTo_S8x256x64x64_S_d0_1_2_3 h_S_) main_v11 main_c_3
  let main_v13 : IVec S_ 1 := andi main_v8 main_v12
  let main_v14 : FVec F S1x4096x256 .f32 := Host.absf main_arg3
  let main_cst_4 : FVec F S_ .f32 := constant S_ .f32 0x7F800000#32
  let main_v15 : FVec F S1x4096x256 .f32 := broadcastInDim S1x4096x256 ![] bcast_S_S1x4096x256 main_cst_4
  let main_v16 : IVec S1x4096x256 1 := cmpf .olt main_v14 main_v15
  fn_part1 (F := F) main_arg4 main_v13 main_v16
-- ==== Kernel.lean ====
abbrev S8x256x64x64 : Shape := ⟨4, ![8, 256, 64, 64]⟩
abbrev S1x4096x256 : Shape := ⟨3, ![1, 4096, 256]⟩
abbrev S8x64x64x256 : Shape := ⟨4, ![8, 64, 64, 256]⟩
abbrev S8x4096x256 : Shape := ⟨3, ![8, 4096, 256]⟩
abbrev S_ : Shape := ⟨0, ![]⟩
abbrev S8x256x4096 : Shape := ⟨3, ![8, 256, 4096]⟩
abbrev S1x512x256 : Shape := ⟨3, ![1, 512, 256]⟩
abbrev S1x256x512 : Shape := ⟨3, ![1, 256, 512]⟩
abbrev S512x256 : Shape := ⟨2, ![512, 256]⟩
abbrev S4096x256 : Shape := ⟨2, ![4096, 256]⟩
abbrev S512x4096 : Shape := ⟨2, ![512, 4096]⟩
abbrev S512 : Shape := ⟨1, ![512]⟩
abbrev S512x1 : Shape := ⟨2, ![512, 1]⟩
abbrev S256x512 : Shape := ⟨2, ![256, 512]⟩

abbrev nBuf : Space → Nat
  | .hbm => 23
  | .vmem => 8
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S8x256x64x64, .f32⟩
  | .hbm, ⟨3, _⟩ => ⟨S1x4096x256, .f32⟩
  | .hbm, ⟨4, _⟩ => ⟨S1x4096x256, .f32⟩
  | .hbm, ⟨5, _⟩ => ⟨S8x64x64x256, .f32⟩
  | .hbm, ⟨6, _⟩ => ⟨S8x4096x256, .f32⟩
  | .hbm, ⟨7, _⟩ => ⟨S8x64x64x256, .f32⟩
  | .hbm, ⟨8, _⟩ => ⟨S8x4096x256, .f32⟩
  | .hbm, ⟨9, _⟩ => ⟨S8x64x64x256, .f32⟩
  | .hbm, ⟨10, _⟩ => ⟨S8x4096x256, .f32⟩
  | .hbm, ⟨11, _⟩ => ⟨S8x4096x256, .f32⟩
  | .hbm, ⟨12, _⟩ => ⟨S8x4096x256, .f32⟩
  | .hbm, ⟨13, _⟩ => ⟨S_, .f32⟩
  | .hbm, ⟨14, _⟩ => ⟨S8x4096x256, .f32⟩
  | .hbm, ⟨15, _⟩ => ⟨S8x4096x256, .f32⟩
  | .hbm, ⟨16, _⟩ => ⟨S8x4096x256, .bf16⟩
  | .hbm, ⟨17, _⟩ => ⟨S8x4096x256, .f32⟩
  | .hbm, ⟨18, _⟩ => ⟨S8x4096x256, .f32⟩
  | .hbm, ⟨19, _⟩ => ⟨S8x4096x256, .bf16⟩
  | .hbm, ⟨20, _⟩ => ⟨S8x4096x256, .bf16⟩
  | .hbm, ⟨21, _⟩ => ⟨S8x256x4096, .f32⟩
  | .hbm, ⟨22, _⟩ => ⟨S8x256x64x64, .f32⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x512, .f32⟩
  | .local _ .vmem, ⟨7, _⟩ => ⟨S1x256x512, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x256x64x64_S8x64x64x256_0_2_3_1 : S8x256x64x64.Transposes [0, 2, 3, 1] S8x64x64x256
  shapeCasts_S8x64x64x256_S8x4096x256 : S8x64x64x256.ShapeCasts S8x4096x256
  bcast_S1x4096x256_S8x4096x256_0_1_2 : S1x4096x256.BroadcastsInDim S8x4096x256 (![0, 1, 2] : Fin 3 → Fin S8x4096x256.rank)
  bcast_S_S8x4096x256 : S_.BroadcastsInDim S8x4096x256 (![] : Fin 0 → Fin S8x4096x256.rank)
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S512x4096_S512 : S512x4096.Reduces [1] S512
  shapeCasts_S512_S512x1 : S512.ShapeCasts S512x1
  broadcasts_S512x1_S512x4096 : S512x1.Broadcasts S512x4096
  broadcasts_S512x1_S512x256 : S512x1.Broadcasts S512x256
  transposes_S512x256_p1_0_S256x512 : S512x256.Transposes [1, 0] S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  shapeCasts_S8x256x4096_S8x256x64x64 : S8x256x4096.ShapeCasts S8x256x64x64
  dot_S512x256_S4096x256_S512x4096_1_1_0_0_n_n_wf : DotDims.WF S512x256 S4096x256 S512x4096 [1] [1] [0] [0] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x4096x256.size a
  hwx0_0 : ∀ i : grid0.Coords, EltTy.bits .bf16 = 32 ∨ (Rect.block (s := S8x4096x256) S1x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x256.size a
  hwx0_1 : ∀ i : grid0.Coords, EltTy.bits .bf16 = 32 ∨ (Rect.block (s := S8x4096x256) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x4096x256.size a
  hwx0_2 : ∀ i : grid0.Coords, EltTy.bits .bf16 = 32 ∨ (Rect.block (s := S8x4096x256) S1x4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S8x256x4096.size a
  hwx0_3 : ∀ i : grid0.Coords, EltTy.bits .f32 = 32 ∨ (Rect.block (s := S8x256x4096) S1x256x512.size (cc0_transform_3 i) (hinb0_3 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v10) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S1x4096x256 : Shape := ⟨3, ![1, 4096, 256]⟩
abbrev S8x64x64x256 : Shape := ⟨4, ![8, 64, 64, 256]⟩
abbrev S8x4096x256 : Shape := ⟨3, ![8, 4096, 256]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x256x4096 : Shape := ⟨3, ![8, 256, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S8x256x64x64, .f32⟩
  | .hbm, ⟨3, _⟩ => ⟨S1x4096x256, .f32⟩
  | .hbm, ⟨4, _⟩ => ⟨S1x4096x256, .f32⟩
  | .hbm, ⟨5, _⟩ => ⟨S8x64x64x256, .f32⟩
  | .hbm, ⟨6, _⟩ => ⟨S8x4096x256, .f32⟩
  | .hbm, ⟨7, _⟩ => ⟨S8x4096x256, .f32⟩
  | .hbm, ⟨8, _⟩ => ⟨S8x4096x256, .f32⟩
  | .hbm, ⟨9, _⟩ => ⟨S8x64x64x256, .f32⟩
  | .hbm, ⟨10, _⟩ => ⟨S8x4096x256, .f32⟩
  | .hbm, ⟨11, _⟩ => ⟨S8x4096x256, .f32⟩
  | .hbm, ⟨12, _⟩ => ⟨S8x4096x256, .f32⟩
  | .hbm, ⟨13, _⟩ => ⟨S8x64x64x256, .f32⟩
  | .hbm, ⟨14, _⟩ => ⟨S8x4096x256, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x256, .f32⟩
  | .hbm, ⟨34, _⟩ => ⟨S8x256x4096, .f32⟩
  | .hbm, ⟨35, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  transposes_S8x256x64x64_S8x64x64x256_0_2_3_1 : S8x256x64x64.Transposes [0, 2, 3, 1] S8x64x64x256
  shapeCasts_S8x64x64x256_S8x4096x256 : S8x64x64x256.ShapeCasts S8x4096x256
  bcast_S1x4096x256_S8x4096x256_0_1_2 : S1x4096x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x256_S8x256x4096_0_2_1 : S8x4096x256.Transposes [0, 2, 1] S8x256x4096
  shapeCasts_S8x256x4096_S8x256x64x64 : S8x256x4096.ShapeCasts S8x256x64x64
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.LibMatmulT.lean ====
/-
  A matrix product that contracts the LAST axis of both operands, [a, K] × [b, K] → [a, b], accumulated into the zero
  matrix and read at an entry over the extended reals: entry (i, j) is the sum over k of the left operand at (i, k)
  times the right operand at (j, k) — the product of the left matrix with the transpose of the right one.
-/
import Idealize.ShloMosaic.Lib.ValueIdx
import Idealize.ShloMosaic.PureOps.Ideal.Laws

open scoped BigOperators

namespace Idealize.ShloMosaic.ValueIdx

open Idealize.ShloMosaic

/-- Let the dimension numbers `D` of a product [a, K] × [b, K] → [a, b] contract one axis of extent `K` (`hr`, `hs`), and let
    the operand indices they name at result index `j` and contraction index `q` be (j₀, q) on the left (`hl0`, `hl1`) and
    (j₁, q) on the right (`hr0`, `hr1`). Then the product into the zero accumulator, read at (i, j) over the extended reals,
    is `∑ k, lhs (i, k) * rhs (j, k)`: the contraction's index set is matched with `Fin K` and the sum re-indexed. -/
theorem matmulT_zero_apply {a K b : ℕ} {φ₁ φ₂ : FTy}
    (D : DotDims ⟨2, ![a, K]⟩ ⟨2, ![b, K]⟩ ⟨2, ![a, b]⟩) (prec : Option ContractPrecision)
    (hr : D.contr.rank = 1) (hs : D.contr.size ⟨0, by omega⟩ = K)
    (hl0 : ∀ (j : (⟨2, ![a, b]⟩ : Shape).Idx) (q : D.contr.Idx), (D.lhsIdx j q 0).val = (j 0).val)
    (hl1 : ∀ (j : (⟨2, ![a, b]⟩ : Shape).Idx) (q : D.contr.Idx), (D.lhsIdx j q 1).val = (q ⟨0, by omega⟩).val)
    (hr0 : ∀ (j : (⟨2, ![a, b]⟩ : Shape).Idx) (q : D.contr.Idx), (D.rhsIdx j q 0).val = (j 1).val)
    (hr1 : ∀ (j : (⟨2, ![a, b]⟩ : Shape).Idx) (q : D.contr.Idx), (D.rhsIdx j q 1).val = (q ⟨0, by omega⟩).val)
    (lhs : FVec Ideal ⟨2, ![a, K]⟩ φ₁) (rhs : FVec Ideal ⟨2, ![b, K]⟩ φ₂) (i : Fin a) (j : Fin b) :
    matmul D prec lhs rhs (constant (F := Ideal) ⟨2, ![a, b]⟩ .f32 0x00000000#32) (ix2 i j)
      = ∑ k : Fin K, lhs (ix2 i k) * rhs (ix2 j k) := by
  show FloatOps.matmul D prec lhs rhs (constant (F := Ideal) ⟨2, ![a, b]⟩ .f32 0x00000000#32) (ix2 i j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun ax => Fin.ext (by
    match ax with
    | ⟨0, _⟩ => exact hl0 _ _
    | ⟨1, _⟩ => exact (hl1 _ _).trans hk)
  have er : D.rhsIdx (ix2 i j) ((contrEquiv1 D K hr hs).symm k) = ix2 j k := funext fun ax => Fin.ext (by
    match ax with
    | ⟨0, _⟩ => exact hr0 _ _
    | ⟨1, _⟩ => exact (hr1 _ _).trans hk)
  rw [el, er]

end Idealize.ShloMosaic.ValueIdx
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibAttn.lean ====
/-
  Softmax attention for ONE query row and ONE value column, on the extended reals.

  The scores of a query row `a` against the key rows `K k` are the inner products, scaled by `c`; the row's
  weights are `exp (score − max score)`; the result is the weighted mean of the values `v k`.
  Two arrangements of this computation are compared.  The first scales the query row BEFORE the inner product and
  multiplies the weighted SUM of the values by the reciprocal of the weights' total.  The second scales the inner
  product AFTERWARDS and divides every weight by the total before the values are summed.  For finite entries both are
  the same real number: the scale moves across the inner product by distributivity, the two maxima are the same
  (finite) number, every weight is a positive real, so the total is a nonzero real and division by it is
  multiplication by its reciprocal, which distributes over the sum.
-/
import Idealize.ShloMosaic.PureOps.Ideal.Laws

open scoped BigOperators

noncomputable section

namespace Cert.Attn

open Idealize.ShloMosaic

variable {ι κ : Type} [Fintype ι] [Fintype κ]

/-- The score of key `k`, the query row scaled first. -/
def scoreFirst (c : EReal) (a : ι → EReal) (K : κ → ι → EReal) (k : κ) : EReal := ∑ e, (a e * c) * K k e

/-- The score of key `k`, the inner product scaled afterwards. -/
def scoreLast (c : EReal) (a : ι → EReal) (K : κ → ι → EReal) (k : κ) : EReal := (∑ e, a e * K k e) * c

/-- Scale first; weighted sum of the values times the reciprocal of the weights' total. -/
def attnFirst (c : EReal) (a : ι → EReal) (K : κ → ι → EReal) (v : κ → EReal) : EReal :=
  (∑ k, Ideal.exp (scoreFirst c a K k - Finset.univ.fold max ⊥ (scoreFirst c a K)) * v k)
    * Ideal.div 1 (∑ k, Ideal.exp (scoreFirst c a K k - Finset.univ.fold max ⊥ (scoreFirst c a K)))

/-- Scale last; every weight divided by the total, then the values summed. -/
def attnLast (c : EReal) (a : ι → EReal) (K : κ → ι → EReal) (v : κ → EReal) : EReal :=
  ∑ k, Ideal.div (Ideal.exp (scoreLast c a K k - max ⊥ (Finset.univ.fold max ⊥ (scoreLast c a K))))
      (0 + ∑ k', Ideal.exp (scoreLast c a K k' - max ⊥ (Finset.univ.fold max ⊥ (scoreLast c a K)))) * v k

/-- One row of attention with the query row already scaled: the weighted sum of the values times the reciprocal of
    the weights' total. -/
def row (a : ι → EReal) (K : κ → ι → EReal) (v : κ → EReal) : EReal :=
  (∑ k, Ideal.exp ((∑ e, a e * K k e) - Finset.univ.fold max ⊥ (fun k' => ∑ e, a e * K k' e)) * v k)
    * Ideal.div 1 (∑ k, Ideal.exp ((∑ e, a e * K k e) - Finset.univ.fold max ⊥ (fun k' => ∑ e, a e * K k' e)))

/-- Scaling first is that row computation on the scaled query row. -/
theorem attnFirst_eq_row (c : EReal) (a : ι → EReal) (K : κ → ι → EReal) (v : κ → EReal) :
    attnFirst c a K v = row (fun e => a e * c) K v := rfl

/-- A finite sum of reals, each read as an extended real, is the real sum. -/
theorem coe_sum {α : Type} (s : Finset α) (f : α → ℝ) : ∑ i ∈ s, ((f i : ℝ) : EReal) = ((∑ i ∈ s, f i : ℝ) : EReal) := by
  classical
  refine Finset.induction_on s (by simp) (fun a s ha ih => ?_)
  rw [Finset.sum_insert ha, Finset.sum_insert ha, ih, EReal.coe_add]

/-- The maximum of finitely many reals over a nonempty index set, started from −∞, is a real. -/
theorem fold_max_real [Nonempty κ] (σ : κ → ℝ) :
    ∃ μ : ℝ, Finset.univ.fold max (⊥ : EReal) (fun k => ((σ k : ℝ) : EReal)) = (μ : EReal) := by
  have htop : Finset.univ.fold max (⊥ : EReal) (fun k => ((σ k : ℝ) : EReal)) ≠ ⊤ :=
    ne_of_lt ((Finset.fold_max_lt _).2 ⟨bot_lt_top, fun k _ => EReal.coe_lt_top _⟩)
  have hbot : Finset.univ.fold max (⊥ : EReal) (fun k => ((σ k : ℝ) : EReal)) ≠ ⊥ :=
    ne_of_gt ((Finset.lt_fold_max _).2 (Or.inr ⟨Classical.arbitrary κ, Finset.mem_univ _, EReal.bot_lt_coe _⟩))
  exact ⟨_, (EReal.coe_toReal htop hbot).symm⟩

/-- For real entries the two arrangements agree. -/
theorem attnFirst_eq_attnLast_coe [Nonempty κ] (c : ℝ) (a : ι → ℝ) (K : κ → ι → ℝ) (v : κ → ℝ) :
    attnFirst (c : EReal) (fun e => (a e : EReal)) (fun k e => (K k e : EReal)) (fun k => (v k : EReal))
      = attnLast (c : EReal) (fun e => (a e : EReal)) (fun k e => (K k e : EReal)) (fun k => (v k : EReal)) := by
  -- both scores are the real number σ k
  have hF : scoreFirst (c : EReal) (fun e => (a e : EReal)) (fun k e => (K k e : EReal))
      = fun k => (((∑ e, a e * K k e) * c : ℝ) : EReal) := by
    funext k
    unfold scoreFirst
    simp only [← EReal.coe_mul]
    rw [coe_sum, Finset.sum_mul]
    exact congrArg _ (Finset.sum_congr rfl fun e _ => by ring)
  have hL : scoreLast (c : EReal) (fun e => (a e : EReal)) (fun k e => (K k e : EReal))
      = fun k => (((∑ e, a e * K k e) * c : ℝ) : EReal) := by
    funext k
    unfold scoreLast
    simp only [← EReal.coe_mul]
    rw [coe_sum, ← EReal.coe_mul]
  obtain ⟨μ, hμ⟩ := fold_max_real (κ := κ) (fun k => (∑ e, a e * K k e) * c)
  unfold attnFirst attnLast
  rw [hF, hL, hμ, max_eq_right bot_le]
  -- the weights are positive reals, their total a nonzero real
  have hl : (∑ k : κ, Real.exp ((∑ e, a e * K k e) * c - μ)) ≠ 0 :=
    ne_of_gt (Finset.sum_pos (fun k _ => Real.exp_pos _) Finset.univ_nonempty)
  simp only [← EReal.coe_sub, Ideal.exp_coe, ← EReal.coe_mul, coe_sum, zero_add, Ideal.div_coe hl, one_mul]
  refine congrArg _ ?_
  rw [Finset.sum_mul]
  exact Finset.sum_congr rfl fun k _ => by ring

/-- For entries that are all finite the two arrangements agree. -/
theorem attnFirst_eq_attnLast [Nonempty κ] (c : EReal) (a : ι → EReal) (K : κ → ι → EReal) (v : κ → EReal)
    (hc : ∃ r : ℝ, c = r) (ha : ∀ e, ∃ r : ℝ, a e = r) (hK : ∀ k e, ∃ r : ℝ, K k e = r) (hv : ∀ k, ∃ r : ℝ, v k = r) :
    attnFirst c a K v = attnLast c a K v := by
  obtain ⟨c', rfl⟩ := hc
  choose a' ha' using ha
  choose K' hK' using hK
  choose v' hv' using hv
  obtain rfl : a = fun e => (a' e : EReal) := funext ha'
  obtain rfl : K = fun k e => (K' k e : EReal) := funext fun k => funext (hK' k)
  obtain rfl : v = fun k => (v' k : EReal) := funext hv'
  exact attnFirst_eq_attnLast_coe c' a' K' v'

end Cert.Attn

end
-- ==== Proof.KernelRow.lean ====
/-
  One entry of the block the kernel body stores, on the extended reals.

  The body holds a tile of 512 query rows, all 4096 key rows and all 4096 value rows of one batch element.  Its stored
  block, at channel `d` and query row `q`, is
      (∑ k, w q k · value (k, d)) · (1 / ∑ k, w q k),     w q k = exp (score q k − max over k' of score q k'),
  where `score q k` is the inner product of query row `q` with key row `k`: the first matrix product gives the scores,
  a row maximum and a row sum are taken along the key axis, the second matrix product sums the weighted values, and the
  result is transposed into the (channel, query) layout of the output block.
-/
import proofs.«162885_j70334384439646_2_alg».proof.Proof.Gen.KernelIdeal.Skeleton
import proofs.«162885_j70334384439646_2_alg».proof.Proof.LibMatmulT
import proofs.«162885_j70334384439646_2_alg».proof.Proof.LibMatmul
import proofs.«162885_j70334384439646_2_alg».proof.Proof.LibRowSum
import proofs.«162885_j70334384439646_2_alg».proof.Proof.LibColumn
import proofs.«162885_j70334384439646_2_alg».proof.Proof.LibAttn
import Idealize.ShloMosaic.Lib.ValueLayout
import Idealize.ShloMosaic.Lib.IdealHost

open scoped BigOperators

noncomputable section

namespace Cert.KernelIdeal.Row

open Cert.KernelIdeal Cert.KernelIdeal.Gen Idealize.ShloMosaic Idealize.ShloMosaic.ValueIdx

/-- The first product's dimension numbers: both operands contracted along their last axis. -/
abbrev D1 := dot_S512x256_S4096x256_S512x4096_1_1_0_0_n_n
/-- The second product's dimension numbers: the left operand's columns against the right operand's rows. -/
abbrev D2 := dot_S512x4096_S4096x256_S512x256_1_0_0_1_n_n

theorem d1_l0 (j : S512x4096.Idx) (q : D1.contr.Idx) : (D1.lhsIdx j q 0).val = (j 0).val := by
  unfold DotDims.lhsIdx
  rw [dif_neg (show ¬(0 : Fin S512x256.rank) ∈ D1.lhsBatch by decide), dif_pos (show (0 : Fin S512x256.rank) ∈ D1.lhsNonContracting by decide)]
  rfl
theorem d1_l1 (j : S512x4096.Idx) (q : D1.contr.Idx) : (D1.lhsIdx j q 1).val = (q ⟨0, by decide⟩).val :=
  D1.lhsIdx_val_of_single rfl j q
theorem d1_r0 (j : S512x4096.Idx) (q : D1.contr.Idx) : (D1.rhsIdx j q 0).val = (j 1).val := by
  unfold DotDims.rhsIdx
  rw [dif_neg (show ¬(0 : Fin S4096x256.rank) ∈ D1.rhsBatch by decide), dif_pos (show (0 : Fin S4096x256.rank) ∈ D1.rhsNonContracting by decide)]
  rfl
theorem d1_r1 (j : S512x4096.Idx) (q : D1.contr.Idx) : (D1.rhsIdx j q 1).val = (q ⟨0, by decide⟩).val :=
  D1.rhsIdx_val_of_single rfl j q

theorem d2_l0 (j : S512x256.Idx) (q : D2.contr.Idx) : (D2.lhsIdx j q 0).val = (j 0).val := by
  unfold DotDims.lhsIdx
  rw [dif_neg (show ¬(0 : Fin S512x4096.rank) ∈ D2.lhsBatch by decide), dif_pos (show (0 : Fin S512x4096.rank) ∈ D2.lhsNonContracting by decide)]
  rfl
theorem d2_l1 (j : S512x256.Idx) (q : D2.contr.Idx) : (D2.lhsIdx j q 1).val = (q ⟨0, by decide⟩).val :=
  D2.lhsIdx_val_of_single rfl j q
theorem d2_r0 (j : S512x256.Idx) (q : D2.contr.Idx) : (D2.rhsIdx j q 0).val = (q ⟨0, by decide⟩).val :=
  D2.rhsIdx_val_of_single rfl j q
theorem d2_r1 (j : S512x256.Idx) (q : D2.contr.Idx) : (D2.rhsIdx j q 1).val = (j 1).val := by
  unfold DotDims.rhsIdx
  rw [dif_neg (show ¬(1 : Fin S4096x256.rank) ∈ D2.rhsBatch by decide), dif_pos (show (1 : Fin S4096x256.rank) ∈ D2.rhsNonContracting by decide)]
  rfl

variable (v0 : Vec Ideal S1x512x256 .bf16) (v2 v4 : Vec Ideal S1x4096x256 .bf16)

/-- The score of query row `q` against key row `k`: their inner product. -/
def score (q : Fin 512) (k : Fin 4096) : EReal := ∑ e : Fin 256, v0 (ix3 (0 : Fin 1) q e) * v2 (ix3 (0 : Fin 1) k e)

/-- The weight of key row `k` for query row `q`: the exponential of the score less the row's largest score. -/
def weight (q : Fin 512) (k : Fin 4096) : EReal :=
  Ideal.exp (score v0 v2 q k - Finset.univ.fold max (⊥ : EReal) (score v0 v2 q))

/-- The matrix of scores as the body computes it. -/
def scores : FVec Ideal S512x4096 .f32 :=
  matmul D1 none (shapeCast S512x256 v0 shapeCasts_S1x512x256_S512x256 : FVec Ideal S512x256 .bf16)
    (shapeCast S4096x256 v2 shapeCasts_S1x4096x256_S4096x256 : FVec Ideal S4096x256 .bf16) (constant S512x4096 .f32 0x00000000#32)

theorem scores_apply (q : Fin 512) (k : Fin 4096) : scores v0 v2 (ix2 q k) = score v0 v2 q k := by
  unfold scores score
  refine (matmulT_zero_apply (φ₁ := .bf16) (φ₂ := .bf16) D1 none rfl rfl d1_l0 d1_l1 d1_r0 d1_r1 _ _ q k).trans ?_
  refine Finset.sum_congr rfl fun e _ => ?_
  rw [shapeCast_1ab_ab_apply, shapeCast_1ab_ab_apply]

/-- A row maximum along the key axis, started from −∞, read at a query row. -/
theorem rowmax_apply (x : FVec Ideal S512x4096 .f32) (q : Fin 512) :
    multiReduction .maximumf [1] S512 x 0xFF800000#32 reduces_S512x4096_S512 (.inl rfl) rfl (ix1 q)
      = Finset.univ.fold max (⊥ : EReal) (fun k : Fin 4096 => x (ix2 q k)) := by
  have e1 : FloatOps.ofBits (F := Ideal) .f32 0xFF800000#32 = (⊥ : EReal) := by simp [Ideal.ofBits, Ideal.ieee]
  have e2 : (x ∘ reduces_S512x4096_S512.lift (ix1 q)) = fun k : Fin 4096 => x (ix2 q k) :=
    funext fun k => congrArg x (Cert.LibRowSum.lift_row reduces_S512x4096_S512 q k)
  refine (Ideal.multiReduction_maximumf_single x 0xFF800000#32 reduces_S512x4096_S512 (.inl rfl) rfl (ix1 q)).trans ?_
  rw [e1, e2]
  rfl

/-- The matrix of weights as the body computes it. -/
def weights : FVec Ideal S512x4096 .f32 :=
  exp (subf (scores v0 v2) (broadcastTo S512x4096 (shapeCast S512x1
    (multiReduction .maximumf [1] S512 (scores v0 v2) 0xFF800000#32 reduces_S512x4096_S512 (.inl rfl) rfl)
    shapeCasts_S512_S512x1) broadcasts_S512x1_S512x4096))

theorem weights_apply (q : Fin 512) (k : Fin 4096) : weights v0 v2 (ix2 q k) = weight v0 v2 q k := by
  unfold weights weight
  show Ideal.exp (scores v0 v2 (ix2 q k) - broadcastTo S512x4096 (shapeCast S512x1
    (multiReduction .maximumf [1] S512 (scores v0 v2) 0xFF800000#32 reduces_S512x4096_S512 (.inl rfl) rfl)
    shapeCasts_S512_S512x1) broadcasts_S512x1_S512x4096 (ix2 q k)) = _
  rw [broadcastTo_a1_ab_apply, shapeCast_a_a1_apply, rowmax_apply, scores_apply]
  exact congrArg (fun f => Ideal.exp (score v0 v2 q k - Finset.univ.fold max (⊥ : EReal) f))
    (funext fun k' => scores_apply v0 v2 q k')

/-- The stored block is the weights, the two reductions and the second product, re-laid. -/
theorem pay_eq : k0_pay1 (F := Ideal) v0 v2 v4
    = shapeCast S1x256x512 (transpose S256x512 [1, 0] (mulf
        (matmul D2 none (truncf .bf16 (weights v0 v2) bitsLt_bf16_f32 : FVec Ideal S512x4096 .bf16)
          (shapeCast S4096x256 v4 shapeCasts_S1x4096x256_S4096x256 : FVec Ideal S4096x256 .bf16) (constant S512x256 .f32 0x00000000#32))
        (broadcastTo S512x256 (divf (broadcast S512x1 (Scalar.ofBits (F := Ideal) .f32 0x3F800000#32))
          (shapeCast S512x1 (multiReduction .add [1] S512 (weights v0 v2) 0x00000000#32 reduces_S512x4096_S512 (.inl rfl) rfl)
            shapeCasts_S512_S512x1)) broadcasts_S512x1_S512x256))
        transposes_S512x256_p1_0_S256x512) shapeCasts_S256x512_S1x256x512 := rfl

/-- The weighted values summed over the keys: the second product at (query row, channel). -/
theorem wsum_apply (q : Fin 512) (d : Fin 256) :
    matmul D2 none (truncf .bf16 (weights v0 v2) bitsLt_bf16_f32 : FVec Ideal S512x4096 .bf16)
        (shapeCast S4096x256 v4 shapeCasts_S1x4096x256_S4096x256 : FVec Ideal S4096x256 .bf16) (constant S512x256 .f32 0x00000000#32) (ix2 q d)
      = ∑ k : Fin 4096, weight v0 v2 q k * v4 (ix3 (0 : Fin 1) k d) := by
  refine (Cert.LibMatmul.matmul_zero_ix2 (φ₁ := .bf16) (φ₂ := .bf16) D2 none rfl rfl d2_l0 d2_l1 d2_r0 d2_r1 _ _ (ix2 q d)).trans ?_
  refine Finset.sum_congr rfl fun k _ => ?_
  show weights v0 v2 (ix2 q k) * shapeCast S4096x256 v4 shapeCasts_S1x4096x256_S4096x256 (ix2 k d) = _
  rw [weights_apply, shapeCast_1ab_ab_apply]

/-- The reciprocal of a row's total weight, laid along the channels. -/
theorem recip_apply (q : Fin 512) (d : Fin 256) :
    broadcastTo S512x256 (divf (broadcast S512x1 (Scalar.ofBits (F := Ideal) .f32 0x3F800000#32))
        (shapeCast S512x1 (multiReduction .add [1] S512 (weights v0 v2) 0x00000000#32 reduces_S512x4096_S512 (.inl rfl) rfl)
          shapeCasts_S512_S512x1)) broadcasts_S512x1_S512x256 (ix2 q d)
      = Ideal.div 1 (∑ k : Fin 4096, weight v0 v2 q k) := by
  rw [broadcastTo_a1_ab_apply]
  show Ideal.div (Ideal.ofBits .f32 0x3F800000#32) (shapeCast S512x1
    (multiReduction .add [1] S512 (weights v0 v2) 0x00000000#32 reduces_S512x4096_S512 (.inl rfl) rfl)
    shapeCasts_S512_S512x1 (ix2 q (0 : Fin 1))) = _
  rw [shapeCast_a_a1_apply, Ideal.ofBits_one_f32]
  refine congrArg (Ideal.div 1) ?_
  refine (Cert.LibRowSum.multiReduction_add_row (weights v0 v2) 0x00000000#32 reduces_S512x4096_S512 (.inl rfl) rfl q).trans ?_
  exact Finset.sum_congr rfl fun k _ => weights_apply v0 v2 q k

/-- The stored block at channel `d` and query row `q`. -/
theorem pay_apply (d : Fin 256) (q : Fin 512) :
    k0_pay1 (F := Ideal) v0 v2 v4 (ix3 (0 : Fin 1) d q)
      = (∑ k : Fin 4096, weight v0 v2 q k * v4 (ix3 (0 : Fin 1) k d)) * Ideal.div 1 (∑ k : Fin 4096, weight v0 v2 q k) := by
  rw [pay_eq, shapeCast_ab_1ab_apply, transpose_ix2_apply]
  show _ * _ = _
  rw [wsum_apply, recip_apply]

/-- The same entry when the three loaded blocks are given entry by entry: one row of attention over those entries. -/
theorem pay_row (Qf : Fin 512 → Fin 256 → EReal) (Kf : Fin 4096 → Fin 256 → EReal) (Vf : Fin 4096 → Fin 256 → EReal)
    (h0 : ∀ q e, v0 (ix3 (0 : Fin 1) q e) = Qf q e) (h1 : ∀ k e, v2 (ix3 (0 : Fin 1) k e) = Kf k e)
    (h2 : ∀ k d, v4 (ix3 (0 : Fin 1) k d) = Vf k d) (d : Fin 256) (q : Fin 512) :
    k0_pay1 (F := Ideal) v0 v2 v4 (ix3 (0 : Fin 1) d q) = Cert.Attn.row (Qf q) Kf (fun k => Vf k d) := by
  rw [pay_apply]
  unfold weight score Cert.Attn.row
  simp only [h0, h1, h2]

end Cert.KernelIdeal.Row

end
-- ==== Proof.RefRow.lean ====
/-
  The reference's attention, read at one entry on the extended reals.

  With `QA`, `KA`, `VA` the query, key and value arrays after the layout change and the positional add, the reference
  computes, for batch element `b`, query row `q` and channel `d`: the scores `(∑ e, QA (b,q,e) · KA (b,k,e)) · scale`,
  their maximum over the keys (taken once more against −∞), the weights `exp (score − maximum)`, each divided by the
  weights' total, and the sum over the keys of these quotients times `VA (b,k,d)`; the result is stored at (b, d, q).
-/
import proofs.«162885_j70334384439646_2_alg».proof.Proof.Gen.ReferenceIdeal.Read
import proofs.«162885_j70334384439646_2_alg».proof.Proof.LibAttn

open scoped BigOperators

noncomputable section

namespace Cert.ReferenceIdeal.RefValue

open Cert.ReferenceIdeal Cert.ReferenceIdeal.Gen Cert.ReferenceIdeal.Read Idealize.ShloMosaic Idealize.ShloMosaic.ValueIdx

variable (x0 x1 x2 : (⟨S8x256x64x64, .f32⟩ : BufTy).Contents (Elt Ideal)) (x3 x4 : (⟨S1x4096x256, .f32⟩ : BufTy).Contents (Elt Ideal))

/-- The score scale, one sixteenth, as the literal both programs carry. -/
abbrev scale : EReal := Ideal.ofBits .f32 0x3D800000#32

/-- Query row `q` of batch element `b`. -/
abbrev qrow (b : Fin 8) (q : Fin 4096) : Fin 256 → EReal := fun e => val_main_v3 (F := Ideal) x0 x3 (ix3 b q e)
/-- The key rows of batch element `b`. -/
abbrev krows (b : Fin 8) : Fin 4096 → Fin 256 → EReal := fun k e => val_main_v7 (F := Ideal) x1 x4 (ix3 b k e)
/-- Channel `d` of the value rows of batch element `b`. -/
abbrev vcol (b : Fin 8) (d : Fin 256) : Fin 4096 → EReal := fun k => val_main_v9 (F := Ideal) x2 (ix3 b k d)

/-- Over (b, q) the source index with coordinate k on the reduced axis is (b, q, k). -/
theorem lift3 (h : S8x4096x4096.Reduces [2] S8x4096) (b : Fin 8) (q k : Fin 4096) : h.lift (ix2 b q) k = ix3 b q k := by
  funext a
  match a with
  | ⟨0, _⟩ => exact Fin.ext rfl
  | ⟨1, _⟩ => exact Fin.ext rfl
  | ⟨2, _⟩ => exact Fin.ext rfl

/-- The scaled scores. -/
theorem v12_apply (b : Fin 8) (q k : Fin 4096) :
    val_main_v12 (F := Ideal) x0 x1 x3 x4 (ix3 b q k) = Cert.Attn.scoreLast scale (qrow x0 x3 b q) (krows x1 x4 b) k := by
  rw [val_main_v12_apply, val_main_v10_apply, val_main_v11_apply, val_main_cst_apply]
  have hl : ∀ e : Fin 256, lidx_main_v10 (ix3 b q k) e = ix3 b q e := fun e => funext fun a => by
    match a with | ⟨0, _⟩ => rfl | ⟨1, _⟩ => rfl | ⟨2, _⟩ => rfl
  have hr : ∀ e : Fin 256, ridx_main_v10 (ix3 b q k) e = ix3 b k e := fun e => funext fun a => by
    match a with | ⟨0, _⟩ => rfl | ⟨1, _⟩ => rfl | ⟨2, _⟩ => rfl
  simp only [hl, hr]
  rfl

/-- The row maximum of the scaled scores, from −∞. -/
theorem v13_apply (b : Fin 8) (q : Fin 4096) :
    val_main_v13 (F := Ideal) x0 x1 x3 x4 (ix2 b q)
      = Finset.univ.fold max (⊥ : EReal) (Cert.Attn.scoreLast scale (qrow x0 x3 b q) (krows x1 x4 b)) := by
  unfold val_main_v13
  have h : S8x4096x4096.Reduces [2] S8x4096 := by decide
  refine (Host.reduce_eq_fold_single FloatOps.maximumf _ _ reducesTo_S8x4096x4096_S8x4096_d2 h h_S_ (ix2 b q)).trans ?_
  have e1 : val_main_cst_0 (F := Ideal) (Shape.Idx.first h_S_) = (⊥ : EReal) := by
    show Ideal.ofBits .f32 0xFF800000#32 = ⊥
    simp [Ideal.ofBits, Ideal.ieee]
  have e2 : (val_main_v12 (F := Ideal) x0 x1 x3 x4 ∘ h.lift (ix2 b q))
      = Cert.Attn.scoreLast scale (qrow x0 x3 b q) (krows x1 x4 b) :=
    funext fun k => (congrArg (val_main_v12 (F := Ideal) x0 x1 x3 x4) (lift3 h b q k)).trans (v12_apply x0 x1 x3 x4 b q k)
  rw [e1, e2]
  rfl

/-- The maximum taken once more against −∞. -/
theorem v15_apply (b : Fin 8) (q : Fin 4096) :
    val_main_v15 (F := Ideal) x0 x1 x3 x4 (ix2 b q)
      = max ⊥ (Finset.univ.fold max (⊥ : EReal) (Cert.Attn.scoreLast scale (qrow x0 x3 b q) (krows x1 x4 b))) := by
  rw [val_main_v15_apply, val_main_v14_apply, val_main_cst_1_apply, v13_apply]
  have e1 : FloatOps.ofBits (F := Ideal) .f32 0xFF800000#32 = (⊥ : EReal) := by simp [Ideal.ofBits, Ideal.ieee]
  rw [e1]
  rfl

/-- The weights. -/
theorem v19_apply (b : Fin 8) (q k : Fin 4096) :
    val_main_v19 (F := Ideal) x0 x1 x3 x4 (ix3 b q k)
      = Ideal.exp (Cert.Attn.scoreLast scale (qrow x0 x3 b q) (krows x1 x4 b) k
          - max ⊥ (Finset.univ.fold max (⊥ : EReal) (Cert.Attn.scoreLast scale (qrow x0 x3 b q) (krows x1 x4 b)))) := by
  rw [val_main_v19_apply, val_main_v18_apply, val_main_v17_apply, val_main_v16_apply]
  have h17 : idx_main_v16 (idx_main_v17 (ix3 b q k)) = ix2 b q := funext fun a => by
    match a with | ⟨0, _⟩ => rfl | ⟨1, _⟩ => rfl
  rw [h17, v15_apply, v12_apply]
  rfl

/-- The weights' total, from zero. -/
theorem v20_apply (b : Fin 8) (q : Fin 4096) :
    val_main_v20 (F := Ideal) x0 x1 x3 x4 (ix2 b q)
      = 0 + ∑ k : Fin 4096, Ideal.exp (Cert.Attn.scoreLast scale (qrow x0 x3 b q) (krows x1 x4 b) k
          - max ⊥ (Finset.univ.fold max (⊥ : EReal) (Cert.Attn.scoreLast scale (qrow x0 x3 b q) (krows x1 x4 b)))) := by
  rw [val_main_v20_apply]
  have e0 : val_main_cst_2 (F := Ideal) (Shape.Idx.first h_S_) = 0 := by
    show Ideal.ofBits .f32 0x00000000#32 = 0
    exact Ideal.ofBits_zero_f32
  have hi : ∀ k : Fin 4096, idx_main_v20 (ix2 b q) k = ix3 b q k := fun k => funext fun a => by
    match a with | ⟨0, _⟩ => rfl | ⟨1, _⟩ => rfl | ⟨2, _⟩ => rfl
  rw [e0]
  refine congrArg (0 + ·) (Finset.sum_congr rfl fun k _ => ?_)
  rw [hi, v19_apply]

/-- The weighted values summed: the reference's entry at (b, q, d). -/
theorem v24_apply (b : Fin 8) (q : Fin 4096) (d : Fin 256) :
    val_main_v24 (F := Ideal) x0 x1 x2 x3 x4 (ix3 b q d)
      = Cert.Attn.attnLast scale (qrow x0 x3 b q) (krows x1 x4 b) (vcol x2 b d) := by
  rw [val_main_v24_apply]
  unfold Cert.Attn.attnLast
  refine Finset.sum_congr rfl fun k _ => ?_
  have hl : lidx_main_v24 (ix3 b q d) k = ix3 b q k := funext fun a => by
    match a with | ⟨0, _⟩ => rfl | ⟨1, _⟩ => rfl | ⟨2, _⟩ => rfl
  have hr : ridx_main_v24 (ix3 b q d) k = ix3 b k d := funext fun a => by
    match a with | ⟨0, _⟩ => rfl | ⟨1, _⟩ => rfl | ⟨2, _⟩ => rfl
  have h22 : idx_main_v21 (idx_main_v22 (ix3 b q k)) = ix2 b q := funext fun a => by
    match a with | ⟨0, _⟩ => rfl | ⟨1, _⟩ => rfl
  rw [hl, hr, val_main_v23_apply, val_main_v22_apply, val_main_v21_apply, h22, v20_apply, v19_apply]
  rfl

/-- After the transposition: the entry at (b, d, q). -/
theorem v25_apply (b : Fin 8) (d : Fin 256) (q : Fin 4096) :
    val_main_v25 (F := Ideal) x0 x1 x2 x3 x4 (ix3 b d q)
      = Cert.Attn.attnLast scale (qrow x0 x3 b q) (krows x1 x4 b) (vcol x2 b d) := by
  rw [val_main_v25_apply]
  have h : idx_main_v25 (ix3 b d q) = ix3 b q d := funext fun a => by
    match a with | ⟨0, _⟩ => rfl | ⟨1, _⟩ => rfl | ⟨2, _⟩ => rfl
  rw [h, v24_apply]

end Cert.ReferenceIdeal.RefValue

end
-- ==== Proof.KernelValue.lean ====
/-
  The idealized kernel's result as one function of its arguments.

  The launch runs the body once per (batch element, tile of 512 query rows).  At such a point the body's three input
  blocks are the tile's rows of the scaled queries and all key and value rows of the batch element; the block it
  stores is, entry by entry, one row of attention over those rows (the body's arithmetic, read in the row module), so
  what the point writes back is its block of ONE whole-array function of the prepared arrays.  The 64 blocks tile the
  output array, so after the launch the array is that function; the host's final reshape is applied to it.
-/
import proofs.«162885_j70334384439646_2_alg».proof.Proof.Gen.KernelIdeal.Frame
import proofs.«162885_j70334384439646_2_alg».proof.Proof.KernelRow
import proofs.«162885_j70334384439646_2_alg».proof.Proof.RefRow
import Idealize.ShloMosaic.Lib.Pipeline.Value
import Idealize.ShloMosaic.Lib.StableHlo.Run
import Idealize.ShloMosaic.Lib.IdealHost

open scoped BigOperators

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.ReferenceIdeal.RefValue (scale qrow krows vcol)

variable (m : (ℓ : Loc nD τ sig) → Buf (Elt Ideal) ℓ) (ρ : Dev nD → PrngReg)

/-- The five argument arrays on core `c`. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)

/-- The queries, keys and values after the layout change and the positional add. -/
abbrev QA (c : Dev nD) : S8x4096x256.Idx → EReal := Cert.ReferenceIdeal.Read.val_main_v3 (F := Ideal) (A0 m c) (A3 m c)
abbrev KA (c : Dev nD) : S8x4096x256.Idx → EReal := Cert.ReferenceIdeal.Read.val_main_v7 (F := Ideal) (A1 m c) (A4 m c)
abbrev VA (c : Dev nD) : S8x4096x256.Idx → EReal := Cert.ReferenceIdeal.Read.val_main_v9 (F := Ideal) (A2 m c)

/-- The launch's output array as one function: at (b, d, s), attention of query row s of batch element b, scaled
    first, over that element's keys, with channel d of its values. -/
def GK (c : Dev nD) : S8x256x4096.Idx → EReal := fun i =>
  Cert.Attn.attnFirst scale (qrow (A0 m c) (A3 m c) (i 0) (i 2)) (krows (A1 m c) (A4 m c) (i 0)) (vcol (A2 m c) (i 0) (i 1))

/-! ## The arrays the launch finds: the host lines before it -/

theorem V_v10 (c : Dev nD) : (show S8x4096x256.Idx → EReal from V m c main_v10)
    = truncf .bf16 (mulf (QA m c) (broadcastInDim S8x4096x256 ![] bcast_S_S8x4096x256 (constant (F := Ideal) S_ .f32 0x3D800000#32))) bitsLt_bf16_f32 := by
  show StableHlo.after hostOps0 (fun b => m (c, b)) (Proc.devRef .tc main_v10) = _
  after_results
  rfl

theorem V_v13 (c : Dev nD) : (show S8x4096x256.Idx → EReal from V m c main_v13) = truncf (F := Ideal) .bf16 (KA m c) bitsLt_bf16_f32 := by
  show StableHlo.after hostOps0 (fun b => m (c, b)) (Proc.devRef .tc main_v13) = _
  after_results
  rfl

theorem V_v14 (c : Dev nD) : (show S8x4096x256.Idx → EReal from V m c main_v14) = truncf (F := Ideal) .bf16 (VA m c) bitsLt_bf16_f32 := by
  show StableHlo.after hostOps0 (fun b => m (c, b)) (Proc.devRef .tc main_v14) = _
  after_results
  rfl

/-- The scaled queries at an index: the prepared query times the scale (the format change is the identity). -/
theorem V_v10_apply (c : Dev nD) (i : S8x4096x256.Idx) : (V m c main_v10 : S8x4096x256.Idx → EReal) i = QA m c i * scale :=
  (congrFun (V_v10 m c) i).trans rfl
theorem V_v13_apply (c : Dev nD) (i : S8x4096x256.Idx) : (V m c main_v13 : S8x4096x256.Idx → EReal) i = KA m c i :=
  (congrFun (V_v13 m c) i).trans rfl
theorem V_v14_apply (c : Dev nD) (i : S8x4096x256.Idx) : (V m c main_v14 : S8x4096x256.Idx → EReal) i = VA m c i :=
  (congrFun (V_v14 m c) i).trans rfl

/-! ## One stored entry from the point's input blocks -/

/-- The stored entry at channel `d` and query row `q` when the entries of the three loaded blocks it depends on are
    given: one row of attention over them. -/
theorem pay_row1 (v0 : Vec Ideal S1x512x256 .bf16) (v2 v4 : Vec Ideal S1x4096x256 .bf16)
    (a : Fin 256 → EReal) (Kf : Fin 4096 → Fin 256 → EReal) (v : Fin 4096 → EReal) (d : Fin 256) (q : Fin 512)
    (h0 : ∀ e, v0 (ix3 (0 : Fin 1) q e) = a e) (h1 : ∀ k e, v2 (ix3 (0 : Fin 1) k e) = Kf k e)
    (h2 : ∀ k, v4 (ix3 (0 : Fin 1) k d) = v k) :
    k0_pay1 (F := Ideal) v0 v2 v4 (ix3 (0 : Fin 1) d q) = Cert.Attn.row a Kf v := by
  rw [Row.pay_apply]
  unfold Row.weight Row.score Cert.Attn.row
  simp only [h0, h1, h2]

/-! ## The index maps over the grid -/

theorem hz : (![0, 0, 0] : Fin 3 → Nat) = fun _ => 0 := funext fun a => by fin_cases a <;> rfl

/-- The printed index maps, decided over the 64 points: the query tile and the output tile move together, the key and
    value blocks are the batch element's whole arrays. -/
theorem idx_facts : ∀ t : Fin cfg0.N,
    win0_0.index t (0 : Fin 3) = win0_3.index t (0 : Fin 3) ∧ win0_0.index t (1 : Fin 3) = win0_3.index t (2 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (0 : Fin 3) ≤ 7 ∧ win0_3.index t (2 : Fin 3) ≤ 7 :=
  (by decide +kernel : ∀ t : Fin grid0.N, _)

/-- Every (batch element, query tile) pair is some point's output block. -/
theorem idx_onto : ∀ (q0 : Fin 8) (q2 : Fin 8), ∃ t : Fin cfg0.N, win0_3.index t = ![q0.val, 0, q2.val] :=
  (by decide +kernel : ∀ (q0 : Fin 8) (q2 : Fin 8), ∃ t : Fin grid0.N, win0_3.index t = ![q0.val, 0, q2.val])

/-! ## What a point writes back -/

/-- The entry the body stores at (0, d, q) of its block at point `t` is the whole-array function at that entry's place
    in the array. -/
theorem entry_eq (c : Dev nD) (t : Fin cfg0.N) (d : Fin 256) (q : Fin 512) :
    k0_pay1 (F := Ideal) (iblk m c 0 t) (iblk m c 1 t) (iblk m c 2 t) (ix3 (0 : Fin 1) d q)
      = GK m c (((cfg0.win 3).blk t).view.emb (ix3 (0 : Fin 1) d q)) := by
  obtain ⟨e00, e01, e02, e10, e11, e12, e20, e21, e22, e31, l0, l2⟩ := idx_facts t
  refine (pay_row1 (iblk m c 0 t) (iblk m c 1 t) (iblk m c 2 t)
    (fun e => qrow (A0 m c) (A3 m c) ((((cfg0.win 3).blk t).view.emb (ix3 (0 : Fin 1) d q)) 0) ((((cfg0.win 3).blk t).view.emb (ix3 (0 : Fin 1) d q)) 2) e * scale)
    (krows (A1 m c) (A4 m c) ((((cfg0.win 3).blk t).view.emb (ix3 (0 : Fin 1) d q)) 0))
    (vcol (A2 m c) ((((cfg0.win 3).blk t).view.emb (ix3 (0 : Fin 1) d q)) 0) ((((cfg0.win 3).blk t).view.emb (ix3 (0 : Fin 1) d q)) 1))
    d q (fun e => ?_) (fun k e => ?_) (fun k => ?_)).trans rfl
  · show (V m c main_v10 : S8x4096x256.Idx → EReal) (((cfg0.win 0).blk t).view.emb (ix3 (0 : Fin 1) q e)) = _
    rw [V_v10_apply]
    refine congrArg (fun j => QA m c j * scale) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 512 + 1 * q.val = win0_3.index t (2 : Fin 3) * 512 + 1 * q.val; omega
    | ⟨2, _⟩ => show win0_0.index t (2 : Fin 3) * 256 + 1 * e.val = e.val; omega
  · show (V m c main_v13 : S8x4096x256.Idx → EReal) (((cfg0.win 1).blk t).view.emb (ix3 (0 : Fin 1) k e)) = _
    rw [V_v13_apply]
    refine congrArg (KA m c) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 4096 + 1 * k.val = k.val; omega
    | ⟨2, _⟩ => show win0_1.index t (2 : Fin 3) * 256 + 1 * e.val = e.val; omega
  · show (V m c main_v14 : S8x4096x256.Idx → EReal) (((cfg0.win 2).blk t).view.emb (ix3 (0 : Fin 1) k d)) = _
    rw [V_v14_apply]
    refine congrArg (VA m c) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 4096 + 1 * k.val = k.val; omega
    | ⟨2, _⟩ => show win0_2.index t (2 : Fin 3) * 256 + 1 * d.val = win0_3.index t (1 : Fin 3) * 256 + 1 * d.val; omega

/-- What point `t` writes back is its block of the whole-array function. -/
theorem flushed_eq (c : Dev nD) (t : Fin cfg0.N) :
    (dats m 0 c).flushed 3 t = ((cfg0.win 3).blk t).view.read (Elt Ideal) (GK m c) := by
  show (cfg0.win 3).cut (grid0.coords t) ((dats m 0 c).after 3 t) = _
  rw [after0_3]
  unfold out0_3
  rw [View.canon_unit_zero hz]
  simp only [View.ld_unit_zero (S := S1x512x256) hz, View.ld_unit_zero (S := S1x4096x256) hz]
  refine funext fun (j : S1x256x512.Idx) => ?_
  obtain ⟨u, d, q, rfl⟩ : ∃ (u : Fin 1) (d : Fin 256) (q : Fin 512), j = ix3 u d q := ⟨j 0, j 1, j 2, eq_ix3 j⟩
  obtain rfl : u = 0 := Subsingleton.elim _ _
  exact entry_eq m c t d q

/-! ## The blocks tile the array -/

theorem mem_blk (t : Fin cfg0.N) (i : S8x256x4096.Idx) :
    i ∈ ((cfg0.win 3).blk t).view.set ↔ ∀ a : Fin 3, win0_3.index t a * S1x256x512.size a ≤ (i a).val ∧ (i a).val < win0_3.index t a * S1x256x512.size a + S1x256x512.size a := by
  show i ∈ ((View.whole main_v15).slice (win0_3.rect t)).set ↔ _
  rw [View.set_slice_whole, Rect.mem_set_unit]
  exact Iff.rfl

/-- Every index of the output array lies in the block of the point of its batch element and query tile. -/
theorem cover (i : S8x256x4096.Idx) : ∃ t : Fin cfg0.N, (cfg0.win 3).flush t = true ∧ i ∈ ((cfg0.win 3).blk t).view.set := by
  have h0 : (i 0).val < 8 := (i 0).isLt
  have h1 : (i 1).val < 256 := (i 1).isLt
  have h2 : (i 2).val < 4096 := (i 2).isLt
  obtain ⟨t, ht⟩ := idx_onto ⟨(i 0).val, h0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-- So after the launch the output array is the whole-array function. -/
theorem final (c : Dev nD) : (dats m 0 c).arrAt 3 cfg0.N = GK m c :=
  (dats m 0 c).arrAt_eq_of_cover 3 (GK m c) (fun t _ => flushed_eq m c t) cover

/-! ## The host line after the launch, and the run -/

/-- The program's result: the launch's output array, reshaped. -/
theorem tail_v16 (c : Dev nD) :
    Pipeline.afterTail₀ cfgs (dats m) 0 (V0 m) [hostOps1] c main_v16
      = shapeCast S8x256x64x64 (GK m c) shapeCasts_S8x256x4096_S8x256x64x64 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15) = GK m c :=
    (Pipeline.withArrays_arr spec0 launch0.win.arr_inj c _ _ 3).trans (final m c)
  show shapeCast S8x256x64x64 (Pipeline.withArrays (cfgs 0).spec c (V0 m c) (fun w => (dats m 0 c).arrAt w (cfgs 0).N)
    (Proc.devRef .tc main_v15)) shapeCasts_S8x256x4096_S8x256x64x64 = _
  rw [e]

/-- The run of the idealized kernel: the result buffer ends at the reshaped whole-array function of the arguments, the
    arguments unchanged. -/
theorem run : θ_run defs (onTc (τ := τ) (main (F := Ideal))) ⟨m, fun _ => 0, ρ⟩ (fun r => ∀ c : Dev nD,
      r.2.mem ((c.tc : Thread nD τ).loc main_v16) = shapeCast S8x256x64x64 (GK m c) shapeCasts_S8x256x4096_S8x256x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v16 (Pipeline.mem_restRefs_of main_v16 (by decide) (by decide))).trans (tail_v16 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.Finite.lean ====
/-
  The precondition read back: every entry of every argument array is a real number.

  The precondition is the conjunction, over the five arguments, of "all entries satisfy |x| < +∞".  A conjunction of
  one-bit words is 1 only if both are; each conjunct is an all-reduction of comparisons, which makes every entry of its
  argument a real.
-/
import proofs.«162885_j70334384439646_2_alg».proof.Proof.Gen.Pre_finite_inputs
import proofs.«162885_j70334384439646_2_alg».proof.Proof.LibFinite

noncomputable section

namespace Cert.Finite

open Idealize.ShloMosaic Cert.Pre_finite_inputs Cert.LibFinite

/-- Under the precondition every entry of the five argument arrays is a real. -/
theorem all_real (x0 x1 x2 : FVec Ideal S8x256x64x64 .f32) (x3 x4 : FVec Ideal S1x4096x256 .f32)
    (h : fn (F := Ideal) x0 x1 x2 x3 x4 = fun _ => 1#1) :
    (∀ i, ∃ r : ℝ, x0 i = r) ∧ (∀ i, ∃ r : ℝ, x1 i = r) ∧ (∀ i, ∃ r : ℝ, x2 i = r)
      ∧ (∀ i, ∃ r : ℝ, x3 i = r) ∧ (∀ i, ∃ r : ℝ, x4 i = r) := by
  have h' := congrFun h ValueIdx.ix0
  dsimp only [fn, fn_part1] at h'
  obtain ⟨h0123, h4⟩ := IntOp.andi_eq_one.1 h'
  obtain ⟨h012, h3⟩ := IntOp.andi_eq_one.1 h0123
  obtain ⟨h01, h2⟩ := IntOp.andi_eq_one.1 h012
  obtain ⟨h0, h1⟩ := IntOp.andi_eq_one.1 h01
  exact ⟨all_real_of_reduce x0 _ _ _ h0, all_real_of_reduce x1 _ _ _ h1, all_real_of_reduce x2 _ _ _ h2,
    all_real_of_reduce x3 _ _ _ h3, all_real_of_reduce x4 _ _ _ h4⟩

end Cert.Finite

end
-- ==== Proof.Bridge.lean ====
/-
  The two results are one array.

  Both programs end by reshaping an [8, 256, 4096] array whose entry at (b, d, s) is attention of query row s of batch
  element b over that element's keys, with channel d of its values: the kernel's with the query row scaled first and
  the weighted sum of values multiplied by the reciprocal of the weights' total, the reference's with the inner product
  scaled afterwards and every weight divided by the total.  Under the precondition every argument entry is a real, so
  every prepared entry (an argument entry plus a positional entry) is a real, the scale is the real 1/16, and the two
  arrangements agree (the row law of the attention module).
-/
import proofs.«162885_j70334384439646_2_alg».proof.Proof.RefRow
import proofs.«162885_j70334384439646_2_alg».proof.Proof.Finite
import proofs.«162885_j70334384439646_2_alg».proof.Proof.LibAttn

open scoped BigOperators

noncomputable section

namespace Cert.Bridge

open Cert.ReferenceIdeal Cert.ReferenceIdeal.Gen Cert.ReferenceIdeal.Read Cert.ReferenceIdeal.RefValue
open Idealize.ShloMosaic Idealize.ShloMosaic.ValueIdx

variable (x0 x1 x2 : (⟨S8x256x64x64, .f32⟩ : BufTy).Contents (Elt Ideal)) (x3 x4 : (⟨S1x4096x256, .f32⟩ : BufTy).Contents (Elt Ideal))

/-- The scale is the real 1/16. -/
theorem scale_eq : scale = (((1 : ℝ) / 16 : ℝ) : EReal) := by
  simp [Ideal.ofBits, Ideal.ieee, -EReal.coe_mul]; norm_num

/-- A prepared query entry is a real: an argument entry plus a positional entry. -/
theorem qa_real (h0 : ∀ i, ∃ r : ℝ, x0 i = r) (h3 : ∀ i, ∃ r : ℝ, x3 i = r) (i : S8x4096x256.Idx) :
    ∃ r : ℝ, val_main_v3 (F := Ideal) x0 x3 i = r := by
  rw [val_main_v3_apply, val_main_v1_apply, val_main_v0_apply, val_main_v2_apply]
  obtain ⟨a, ha⟩ := h0 (idx_main_v0 (idx_main_v1 i))
  obtain ⟨b, hb⟩ := h3 (idx_main_v2 i)
  rw [ha, hb]
  exact ⟨a + b, (EReal.coe_add a b).symm⟩

/-- A prepared key entry is a real. -/
theorem ka_real (h1 : ∀ i, ∃ r : ℝ, x1 i = r) (h4 : ∀ i, ∃ r : ℝ, x4 i = r) (i : S8x4096x256.Idx) :
    ∃ r : ℝ, val_main_v7 (F := Ideal) x1 x4 i = r := by
  rw [val_main_v7_apply, val_main_v5_apply, val_main_v4_apply, val_main_v6_apply]
  obtain ⟨a, ha⟩ := h1 (idx_main_v4 (idx_main_v5 i))
  obtain ⟨b, hb⟩ := h4 (idx_main_v6 i)
  rw [ha, hb]
  exact ⟨a + b, (EReal.coe_add a b).symm⟩

/-- A prepared value entry is a real. -/
theorem va_real (h2 : ∀ i, ∃ r : ℝ, x2 i = r) (i : S8x4096x256.Idx) : ∃ r : ℝ, val_main_v9 (F := Ideal) x2 i = r := by
  rw [val_main_v9_apply, val_main_v8_apply]
  exact h2 _

/-- The reference's array before its final reshape, as one function. -/
def GR : S8x256x4096.Idx → EReal := fun i =>
  Cert.Attn.attnLast scale (qrow x0 x3 (i 0) (i 2)) (krows x1 x4 (i 0)) (vcol x2 (i 0) (i 1))

/-- The same with the kernel's arrangement. -/
def GF : S8x256x4096.Idx → EReal := fun i =>
  Cert.Attn.attnFirst scale (qrow x0 x3 (i 0) (i 2)) (krows x1 x4 (i 0)) (vcol x2 (i 0) (i 1))

theorem v25_eq : val_main_v25 (F := Ideal) x0 x1 x2 x3 x4 = GR x0 x1 x2 x3 x4 := by
  funext i
  obtain ⟨b, d, q, rfl⟩ : ∃ (b : Fin 8) (d : Fin 256) (q : Fin 4096), i = ix3 b d q := ⟨i 0, i 1, i 2, eq_ix3 i⟩
  exact v25_apply x0 x1 x2 x3 x4 b d q

/-- For real argument entries the two arrangements give one array. -/
theorem GF_eq_GR (h0 : ∀ i, ∃ r : ℝ, x0 i = r) (h1 : ∀ i, ∃ r : ℝ, x1 i = r) (h2 : ∀ i, ∃ r : ℝ, x2 i = r)
    (h3 : ∀ i, ∃ r : ℝ, x3 i = r) (h4 : ∀ i, ∃ r : ℝ, x4 i = r) : GF x0 x1 x2 x3 x4 = GR x0 x1 x2 x3 x4 := by
  funext i
  exact Cert.Attn.attnFirst_eq_attnLast scale _ _ _ ⟨_, scale_eq⟩ (fun e => qa_real x0 x3 h0 h3 _)
    (fun k e => ka_real x1 x4 h1 h4 _) (fun k => va_real x2 h2 _)

end Cert.Bridge

end
-- ==== Proof.lean ====
/-
  The certificate of the attention kernel against its reference.

  Both programs prepare the same three arrays (queries, keys and values moved to a (batch, position, channel) layout,
  the positional arrays added to queries and keys) and compute softmax attention per batch element with the score scale
  1/16.  The kernel scales the queries before the score product, runs one launch over (batch element, tile of 512
  query rows) with all keys and values of the batch element resident, multiplies the weighted sum of the values by the
  reciprocal of the weights' total, and writes the result already transposed to (batch, channel, position).  The
  reference scales the scores, divides every weight by the total, sums, and transposes afterwards.  On the extended
  reals, for finite inputs, the two are one function of the arguments.
  The frames of the two kernel programs are the generated ones; the reference's frame is its generated run with the
  result dropped.  The idealization rewrote nothing, so it preserves the program trivially.
-/
import proofs.«162885_j70334384439646_2_alg».proof.Defs
import proofs.«162885_j70334384439646_2_alg».proof.Proof.Gen.Kernel
import proofs.«162885_j70334384439646_2_alg».proof.Proof.Gen.Kernel.Skeleton
import proofs.«162885_j70334384439646_2_alg».proof.Proof.Gen.Kernel.Launch
import proofs.«162885_j70334384439646_2_alg».proof.Proof.Gen.Kernel.Points
import proofs.«162885_j70334384439646_2_alg».proof.Proof.Gen.Kernel.Frame
import proofs.«162885_j70334384439646_2_alg».proof.Proof.Gen.KernelIdeal
import proofs.«162885_j70334384439646_2_alg».proof.Proof.Gen.KernelIdeal.Skeleton
import proofs.«162885_j70334384439646_2_alg».proof.Proof.Gen.KernelIdeal.Launch
import proofs.«162885_j70334384439646_2_alg».proof.Proof.Gen.KernelIdeal.Points
import proofs.«162885_j70334384439646_2_alg».proof.Proof.Gen.KernelIdeal.Frame
import proofs.«162885_j70334384439646_2_alg».proof.Proof.Gen.ReferenceIdeal
import proofs.«162885_j70334384439646_2_alg».proof.Proof.Gen.Pre_finite_inputs
import proofs.«162885_j70334384439646_2_alg».proof.Proof.Gen.ReferenceIdeal.Run
import proofs.«162885_j70334384439646_2_alg».proof.Proof.Gen.ReferenceIdeal.Read
import proofs.«162885_j70334384439646_2_alg».proof.Proof.KernelValue
import proofs.«162885_j70334384439646_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- The kernel's result buffer ends at the reshaped whole-array function in the kernel's arrangement, the reference's
    at the reshaped one in the reference's arrangement, of arguments that agree and are finite: one array. -/
theorem algebraic : Cert.algebraic_KernelIdeal_ReferenceIdeal := by
  intro m ρ m' ρ' hpre hagree
  refine ⟨fun c => shapeCast Cert.KernelIdeal.S8x256x64x64 (Cert.KernelIdeal.KValue.GK m c)
    Cert.KernelIdeal.Facts₀.shapeCasts_S8x256x4096_S8x256x64x64, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2]
  obtain ⟨r0, r1, r2, r3, r4⟩ := Cert.Finite.all_real _ _ _ _ _ (hpre c)
  unfold Cert.ReferenceIdeal.Read.val_main_v26
  rw [Cert.Bridge.v25_eq, ← Cert.Bridge.GF_eq_GR _ _ _ _ _ r0 r1 r2 r3 r4]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
